-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x64x2048 : S_.BroadcastsInDim S2x16x64x2048 (![] : Fin 0 → Fin S2x16x64x2048.rank)
  reducesTo_S2x16x64x2048_S_d0_1_2_3 : S2x16x64x2048.ReducesTo [0, 1, 2, 3] S_
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_arg4 : FVec F S1x1x2048x2048 .f32) (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  let main_v19 : FVec F S1x1x2048x2048 .f32 := Host.absf main_arg4
  let main_cst_6 : FVec F S_ .f32 := constant S_ .f32 0x7F800000#32
  let main_v20 : FVec F S1x1x2048x2048 .f32 := broadcastInDim S1x1x2048x2048 ![] bcast_S_S1x1x2048x2048 main_cst_6
  let main_v21 : IVec S1x1x2048x2048 1 := cmpf .olt main_v19 main_v20
  let main_c_7 : IVec S_ 1 := constantI S_ 1 1#1
  let main_v22 : IVec S_ 1 := (fun x v => Host.reduce IntOp.andi x v reducesTo_S1x1x2048x2048_S_d0_1_2_3 h_S_) main_v21 main_c_7
  let main_v23 : IVec S_ 1 := andi main_v18 main_v22
  main_v23

def fn {F : FTy → Type} [FloatOps F] (main_arg0 : FVec F S2x16x2048x64 .f32) (main_arg1 : FVec F S2x16x64x2048 .f32) (main_arg2 : FVec F S2x16x2048x64 .f32) (main_arg3 : FVec F S2x16x2048x2048 .f32) (main_arg4 : FVec F S1x1x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x64x2048 .f32 := Host.absf main_arg1
  let main_cst_0 : FVec F S_ .f32 := constant S_ .f32 0x7F800000#32
  let main_v5 : FVec F S2x16x64x2048 .f32 := broadcastInDim S2x16x64x2048 ![] bcast_S_S2x16x64x2048 main_cst_0
  let main_v6 : IVec S2x16x64x2048 1 := cmpf .olt main_v4 main_v5
  let main_c_1 : IVec S_ 1 := constantI S_ 1 1#1
  let main_v7 : IVec S_ 1 := (fun x v => Host.reduce IntOp.andi x v reducesTo_S2x16x64x2048_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x2048x2048 .f32 := Host.absf main_arg3
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_arg4 main_v13 main_v16
-- ==== Kernel.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S1x1x2048x2048 : Shape := ⟨4, ![1, 1, 2048, 2048]⟩
abbrev S1x1x256x64 : Shape := ⟨4, ![1, 1, 256, 64]⟩
abbrev S1x1x64x2048 : Shape := ⟨4, ![1, 1, 64, 2048]⟩
abbrev S1x1x2048x64 : Shape := ⟨4, ![1, 1, 2048, 64]⟩
abbrev S1x1x256x2048 : Shape := ⟨4, ![1, 1, 256, 2048]⟩
abbrev S256x64 : Shape := ⟨2, ![256, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S2048x64 : Shape := ⟨2, ![2048, 64]⟩

abbrev nBuf : Space → Nat
  | .hbm => 8
  | .vmem => 15
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S2x16x2048x2048, .f32⟩
  | .hbm, ⟨4, _⟩ => ⟨S1x1x2048x2048, .f32⟩
  | .hbm, ⟨5, _⟩ => ⟨S2x16x2048x64, .f32⟩
  | .hbm, ⟨6, _⟩ => ⟨S2x16x2048x2048, .f32⟩
  | .hbm, ⟨7, _⟩ => ⟨S2x16x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x64x2048, .f32⟩
  | .local _ .vmem, ⟨3, _⟩ => ⟨S1x1x64x2048, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x2048, .f32⟩
  | .local _ .vmem, ⟨7, _⟩ => ⟨S1x1x256x2048, .f32⟩
  | .local _ .vmem, ⟨8, _⟩ => ⟨S1x1x256x2048, .f32⟩
  | .local _ .vmem, ⟨9, _⟩ => ⟨S1x1x256x64, .f32⟩
  | .local _ .vmem, ⟨10, _⟩ => ⟨S1x1x256x64, .f32⟩
  | .local _ .vmem, ⟨11, _⟩ => ⟨S1x1x256x2048, .f32⟩
  | .local _ .vmem, ⟨12, _⟩ => ⟨S1x1x256x2048, .f32⟩
  | .local _ .vmem, ⟨13, _⟩ => ⟨S1x1x256x2048, .f32⟩
  | .local _ .vmem, ⟨14, _⟩ => ⟨S1x1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 16, 8], ![false, false, false]⟩

def k0_mult1 (i : grid0.Coords) : BitVec 32 :=
  let arg2 : BitVec 32 := BitVec.ofNat 32 (i 2).val
  let c256_i32 : BitVec 32 := 256#32
  let v9 : BitVec 32 := Scalar.muli arg2 c256_i32
  v9
def k0_off1 (i : grid0.Coords) : Fin 4 → Nat :=
  let c0_8 : Index := 0#32
  let c0_9 : Index := 0#32
  let arg2 : BitVec 32 := BitVec.ofNat 32 (i 2).val
  let c256_i32 : BitVec 32 := 256#32
  let v9 : BitVec 32 := Scalar.muli arg2 c256_i32
  let v10 : BitVec 32 := v9
  let v11 : Index := Scalar.indexCast v10
  let c0_10 : Index := 0#32
  ![0, 0, v11.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  h_S1x1x256x2048 : 0 < S1x1x256x2048.numel
  shapeCasts_S1x1x256x2048_S256x2048 : S1x1x256x2048.ShapeCasts S256x2048
  inb_S1x1x256x2048_S1x1x256x2048_0_0_0_0 : ∀ a, (![0, 0, 0, 0] : Fin 4 → Nat) a + S1x1x256x2048.size a ≤ S1x1x256x2048.size a
  shapeCasts_S256x2048_S1x1x256x2048 : S256x2048.ShapeCasts S1x1x256x2048
  reduces_S256x2048_S256 : S256x2048.Reduces [1] S256
  shapeCasts_S256_S256x1 : S256.ShapeCasts S256x1
  broadcasts_S256x1_S256x2048 : S256x1.Broadcasts S256x2048
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x1x256x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S2x16x2048x64.size a
  hwx0_0 : ∀ i : grid0.Coords, EltTy.bits .f32 = 32 ∨ (Rect.block (s := S2x16x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2048.size a ≤ S2x16x64x2048.size a
  hwx0_1 : ∀ i : grid0.Coords, EltTy.bits .f32 = 32 ∨ (Rect.block (s := S2x16x64x2048) S1x1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S1x1x2048x2048.size a
  hwx0_3 : ∀ i : grid0.Coords, EltTy.bits .f32 = 32 ∨ (Rect.block (s := S1x1x2048x2048) S1x1x2048x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x2048.size a ≤ S2x16x2048x2048.size a
  hwx0_4 : ∀ i : grid0.Coords, EltTy.bits .f32 = 32 ∨ (Rect.block (s := S2x16x2048x2048) S1x1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x64.size a ≤ S2x16x2048x64.size a
  hwx0_5 : ∀ i : grid0.Coords, EltTy.bits .f32 = 32 ∨ (Rect.block (s := S2x16x2048x64) S1x1x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256x2048.size a ≤ S2x16x2048x2048.size a
  hwx0_6 : ∀ i : grid0.Coords, EltTy.bits .f32 = 32 ∨ (Rect.block (s := S2x16x2048x2048) S1x1x256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256x2048.size a ≤ S2x16x2048x2048.size a
  hwx0_7 : ∀ i : grid0.Coords, EltTy.bits .f32 = 32 ∨ (Rect.block (s := S2x16x2048x2048) S1x1x256x2048.size (cc0_transform_7 i) (hinb0_7 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x1x256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S1x1x2048x2048 : Shape := ⟨4, ![1, 1, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x64x2048, .f32⟩
  | .hbm, ⟨2, _⟩ => ⟨S2x16x2048x64, .f32⟩
  | .hbm, ⟨3, _⟩ => ⟨S2x16x2048x2048, .f32⟩
  | .hbm, ⟨4, _⟩ => ⟨S1x1x2048x2048, .f32⟩
  | .hbm, ⟨5, _⟩ => ⟨S2x16x2048x2048, .f32⟩
  | .hbm, ⟨6, _⟩ => ⟨S_, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S_, .f32⟩
  | .hbm, ⟨16, _⟩ => ⟨S2x16x2048, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x64x2048_S2x16x2048x2048_3_2_2_3_01_01_wf : DotDims.WF S2x16x2048x64 S2x16x64x2048 S2x16x2048x2048 [3] [2] [2] [3] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x64x2048_S2x16x2048x2048_3_2_2_3_01_01 : DotDims S2x16x2048x64 S2x16x64x2048 S2x16x2048x2048 where
  lhsContracting := [3]
  rhsContracting := [2]
  lhsNonContracting := [2]
  rhsNonContracting := [3]
  lhsBatch := [0, 1]
  rhsBatch := [0, 1]
  wf := dot_S2x16x2048x64_S2x16x64x2048_S2x16x2048x2048_3_2_2_3_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttentionSpec.lean ====
/-
  Scaled dot-product attention with an additive mask and an additive bias, as whole-array functions over the
  extended reals.

  For queries Q[b,h,s,d], keys K[b,h,d,t] (stored already transposed), values V[b,h,t,d], a bias P[b,h,s,t] and a
  mask M[0,0,s,t] shared by every batch and head:

    score(b,h,s,t) = ((Σ_d Q[b,h,s,d] · K[b,h,d,t]) · 1/8 + M[0,0,s,t]) + P[b,h,s,t]
    attn(b,h,s,·)  = softmax of the row score(b,h,s,·)
    ctx(b,h,s,d)   = Σ_t attn(b,h,s,t) · V[b,h,t,d]

  The softmax of a row is spelt the way both programs compute it: the row's maximum taken from -∞ (and once more
  against -∞), the exponentials of the differences, their sum, and the quotient. Nothing here asks the entries to be
  finite: every step is the same term on both sides.

  The head dimension is 64, so the usual scale 1/sqrt(64) is exactly 1/8: one program multiplies by the float 0.125,
  the other divides by the square root of the float 64. `div_sqrt_64` is that one law, on every extended real.
-/
import Idealize.ShloMosaic.PureOps.Ideal
import Idealize.ShloMosaic.PureOps.Ideal.Laws
import Idealize.ShloMosaic.Lib.ValueIdx

noncomputable section

namespace Cert.AttentionSpec

open Idealize.ShloMosaic Idealize.ShloMosaic.ValueIdx

/-! ## The two float constants and the law between them -/

/-- The float 64.0 denotes the real 64. -/
theorem ofBits_64 : Ideal.ofBits .f32 0x42800000#32 = ((64 : ℝ) : EReal) := by
  simp [Ideal.ofBits, Ideal.ieee, -EReal.coe_mul]; norm_num

/-- The float 0.125 denotes the real 1/8. -/
theorem ofBits_eighth : Ideal.ofBits .f32 0x3E000000#32 = ((1 / 8 : ℝ) : EReal) := by
  simp [Ideal.ofBits, Ideal.ieee, -EReal.coe_mul]; norm_num

/-- 64 is the square of 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by the square root of 64 is multiplying by one eighth, at the infinities too. -/
theorem div_sqrt_64 (x : EReal) :
    Ideal.div x (Ideal.sqrt (Ideal.ofBits .f32 0x42800000#32)) = x * Ideal.ofBits .f32 0x3E000000#32 := by
  rw [ofBits_64, sqrt_64, Ideal.div_coe (by norm_num : (8 : ℝ) ≠ 0), ofBits_eighth]

/-! ## The softmax of one row -/

section Row
variable {n : Nat}

/-- The float pattern of -∞, the value both maxima start from. It is never evaluated. -/
abbrev negInf : EReal := Ideal.ofBits .f32 0xFF800000#32

/-- A row's maximum: the fold of max from -∞ over the row, and once more against -∞. -/
def rowMax (s : Fin n → EReal) : EReal := max negInf ((Finset.univ : Finset (Fin n)).fold max negInf s)

/-- The exponential of an entry's distance below the row's maximum. -/
def rowExp (s : Fin n → EReal) (t : Fin n) : EReal := Ideal.exp (s t - rowMax s)

/-- The row's normaliser. -/
def rowSum (s : Fin n → EReal) : EReal := ∑ t : Fin n, rowExp s t

/-- The softmax of the row at one entry. -/
def rowSoftmax (s : Fin n → EReal) (t : Fin n) : EReal := Ideal.div (rowExp s t) (rowSum s)

end Row

/-! ## The three results -/

abbrev SQ : Shape := ⟨4, ![2, 16, 2048, 64]⟩
abbrev SK : Shape := ⟨4, ![2, 16, 64, 2048]⟩
abbrev SP : Shape := ⟨4, ![2, 16, 2048, 2048]⟩
abbrev SM : Shape := ⟨4, ![1, 1, 2048, 2048]⟩

variable (Q : SQ.Idx → EReal) (K : SK.Idx → EReal) (V : SQ.Idx → EReal) (P : SP.Idx → EReal) (M : SM.Idx → EReal)

/-- The biased, masked, scaled score of query s against key t in head (b, h). -/
def score (b : Fin 2) (h : Fin 16) (s t : Fin 2048) : EReal :=
  ((∑ d : Fin 64, Q (ix4 b h s d) * K (ix4 b h d t)) * Ideal.ofBits .f32 0x3E000000#32
      + M (ix4 (0 : Fin 1) (0 : Fin 1) s t)) + P (ix4 b h s t)

/-- The attention weight of key t for query s. -/
def attn (b : Fin 2) (h : Fin 16) (s t : Fin 2048) : EReal :=
  rowSoftmax (fun t' => score Q K P M b h s t') t

/-- The context vector of query s at feature d. -/
def ctx (b : Fin 2) (h : Fin 16) (s : Fin 2048) (d : Fin 64) : EReal :=
  ∑ t : Fin 2048, attn Q K P M b h s t * V (ix4 b h t d)

/-- The score array. -/
def scoresArr : SP.Idx → EReal := fun i => score Q K P M (i 0) (i 1) (i 2) (i 3)

/-- The attention array. -/
def attnArr : SP.Idx → EReal := fun i => attn Q K P M (i 0) (i 1) (i 2) (i 3)

/-- The context array. -/
def ctxArr : SQ.Idx → EReal := fun i => ctx Q K V P M (i 0) (i 1) (i 2) (i 3)

end Cert.AttentionSpec

end
-- ==== Proof.AttentionRef.lean ====
/-
  The host program computes the attention specification.

  Its run is a chain of whole-array operations: the batched product of queries and keys, the division by the square
  root of 64, the mask broadcast over batch and head and added, the bias added (the scores); the row maximum from
  -∞, the exponentials of the differences, the row sums, the quotients (the attention weights); and the batched
  product with the values (the context). Read at an index each stage is the specification's term at that index: the
  only arithmetic is that dividing by the square root of 64 is multiplying by 1/8, and that the sum started from the
  float zero is the sum.
-/
import proofs.«149125_j12171937316878_2_alg».proof.Proof.Gen.ReferenceIdeal.Read
import proofs.«149125_j12171937316878_2_alg».proof.Proof.AttentionSpec
import Idealize.ShloMosaic.PureOps.Reduce

noncomputable section

namespace Cert.AttentionRef

open Idealize.ShloMosaic Idealize.ShloMosaic.ValueIdx
open Cert.ReferenceIdeal Cert.ReferenceIdeal.Read Cert.AttentionSpec

variable (x0 : SQ.Idx → EReal) (x1 : SK.Idx → EReal) (x2 : SQ.Idx → EReal) (x3 : SP.Idx → EReal) (x4 : SM.Idx → EReal)

/-! ## Where each stage reads its operands -/

theorem lidx_v0 (b : Fin 2) (h : Fin 16) (s t : Fin 2048) (k : Fin 64) :
    lidx_main_v0 (ix4 b h s t) k = ix4 b h s k :=
  funext fun a => Fin.ext (by match a with | ⟨0, _⟩ => rfl | ⟨1, _⟩ => rfl | ⟨2, _⟩ => rfl | ⟨3, _⟩ => rfl)

theorem ridx_v0 (b : Fin 2) (h : Fin 16) (s t : Fin 2048) (k : Fin 64) :
    ridx_main_v0 (ix4 b h s t) k = ix4 b h k t :=
  funext fun a => Fin.ext (by match a with | ⟨0, _⟩ => rfl | ⟨1, _⟩ => rfl | ⟨2, _⟩ => rfl | ⟨3, _⟩ => rfl)

theorem idx_v4 (b : Fin 2) (h : Fin 16) (s t : Fin 2048) :
    idx_main_v4 (ix4 b h s t) = ix4 (0 : Fin 1) (0 : Fin 1) s t :=
  funext fun a => Fin.ext (by match a with | ⟨0, _⟩ => rfl | ⟨1, _⟩ => rfl | ⟨2, _⟩ => rfl | ⟨3, _⟩ => rfl)

theorem idx_v10_v11 (b : Fin 2) (h : Fin 16) (s t : Fin 2048) :
    idx_main_v10 (idx_main_v11 (ix4 b h s t)) = ix3 b h s :=
  funext fun a => Fin.ext (by match a with | ⟨0, _⟩ => rfl | ⟨1, _⟩ => rfl | ⟨2, _⟩ => rfl)

theorem idx_v15_v16 (b : Fin 2) (h : Fin 16) (s t : Fin 2048) :
    idx_main_v15 (idx_main_v16 (ix4 b h s t)) = ix3 b h s :=
  funext fun a => Fin.ext (by match a with | ⟨0, _⟩ => rfl | ⟨1, _⟩ => rfl | ⟨2, _⟩ => rfl)

theorem idx_v14 (b : Fin 2) (h : Fin 16) (s : Fin 2048) (k : Fin 2048) :
    idx_main_v14 (ix3 b h s) k = ix4 b h s k :=
  funext fun a => Fin.ext (by match a with | ⟨0, _⟩ => rfl | ⟨1, _⟩ => rfl | ⟨2, _⟩ => rfl | ⟨3, _⟩ => rfl)

theorem lidx_v18 (b : Fin 2) (h : Fin 16) (s : Fin 2048) (d : Fin 64) (k : Fin 2048) :
    lidx_main_v18 (ix4 b h s d) k = ix4 b h s k :=
  funext fun a => Fin.ext (by match a with | ⟨0, _⟩ => rfl | ⟨1, _⟩ => rfl | ⟨2, _⟩ => rfl | ⟨3, _⟩ => rfl)

theorem ridx_v18 (b : Fin 2) (h : Fin 16) (s : Fin 2048) (d : Fin 64) (k : Fin 2048) :
    ridx_main_v18 (ix4 b h s d) k = ix4 b h k d :=
  funext fun a => Fin.ext (by match a with | ⟨0, _⟩ => rfl | ⟨1, _⟩ => rfl | ⟨2, _⟩ => rfl | ⟨3, _⟩ => rfl)

/-! ## The scores -/

/-- The sum of the scaled product, the mask and the bias, at (b, h, s, t). -/
theorem score_at (b : Fin 2) (h : Fin 16) (s t : Fin 2048) :
    val_main_v6 (F := Ideal) x0 x1 x3 x4 (ix4 b h s t) = score x0 x1 x3 x4 b h s t := by
  rw [val_main_v6_apply, val_main_v5_apply, val_main_v3_apply, val_main_v0_apply, val_main_v2_apply,
    val_main_v1_apply, val_main_cst_apply, val_main_v4_apply]
  simp only [Ideal.addf_def, Ideal.hostDivf_def, Ideal.hostUnary_sqrt_def, Ideal.ofBits_def, lidx_v0, ridx_v0, idx_v4]
  rw [div_sqrt_64]
  rfl

/-! ## The row maximum -/

/-- The key axis of the score array is reduced away into (b, h, s). -/
theorem reduces_keys : S2x16x2048x2048.Reduces [3] S2x16x2048 := by decide

/-- (b, h, s) with key t put back on the reduced axis is (b, h, s, t). -/
theorem lift_keys (b : Fin 2) (h : Fin 16) (s : Fin 2048) (t : Fin 2048) :
    reduces_keys.lift (ix3 b h s) t = ix4 b h s t :=
  funext fun a => Fin.ext (by match a with | ⟨0, _⟩ => rfl | ⟨1, _⟩ => rfl | ⟨2, _⟩ => rfl | ⟨3, _⟩ => rfl)

/-- The row maximum of the scores, taken from -∞ and once more against -∞. -/
theorem max_at (b : Fin 2) (h : Fin 16) (s : Fin 2048) :
    val_main_v9 (F := Ideal) x0 x1 x3 x4 (ix3 b h s) = rowMax (fun t => score x0 x1 x3 x4 b h s t) := by
  rw [val_main_v9_apply, val_main_v8_apply, val_main_cst_1_apply]
  unfold val_main_v7
  rw [Host.reduce_eq_fold_single FloatOps.maximumf _ _ Gen.reducesTo_S2x16x2048x2048_S2x16x2048_d3 reduces_keys Gen.h_S_]
  rw [val_main_cst_0_apply]
  have hrow : (val_main_v6 (F := Ideal) x0 x1 x3 x4 ∘ reduces_keys.lift (ix3 b h s))
      = fun t : Fin 2048 => score x0 x1 x3 x4 b h s t :=
    funext fun (t : Fin 2048) =>
      (congrArg (val_main_v6 (F := Ideal) x0 x1 x3 x4) (lift_keys b h s t)).trans (score_at x0 x1 x3 x4 b h s t)
  rw [hrow]
  rfl

/-! ## The exponentials, their sum, and the weights -/

theorem exp_at (b : Fin 2) (h : Fin 16) (s t : Fin 2048) :
    val_main_v13 (F := Ideal) x0 x1 x3 x4 (ix4 b h s t) = rowExp (fun t' => score x0 x1 x3 x4 b h s t') t := by
  rw [val_main_v13_apply, val_main_v12_apply, val_main_v11_apply, val_main_v10_apply, idx_v10_v11, max_at, score_at]
  rfl

theorem sum_at (b : Fin 2) (h : Fin 16) (s : Fin 2048) :
    val_main_v14 (F := Ideal) x0 x1 x3 x4 (ix3 b h s) = rowSum (fun t' => score x0 x1 x3 x4 b h s t') := by
  rw [val_main_v14_apply, val_main_cst_2_apply]
  simp only [Ideal.ofBits_def, Ideal.ofBits_zero_f32, zero_add, idx_v14, exp_at]
  rfl

/-- The attention weight at (b, h, s, t). -/
theorem attn_at (b : Fin 2) (h : Fin 16) (s t : Fin 2048) :
    val_main_v17 (F := Ideal) x0 x1 x3 x4 (ix4 b h s t) = attn x0 x1 x3 x4 b h s t := by
  rw [val_main_v17_apply, val_main_v16_apply, val_main_v15_apply, idx_v15_v16, sum_at, exp_at]
  rfl

/-! ## The context -/

theorem ctx_at (b : Fin 2) (h : Fin 16) (s : Fin 2048) (d : Fin 64) :
    val_main_v18 (F := Ideal) x0 x1 x2 x3 x4 (ix4 b h s d) = ctx x0 x1 x2 x3 x4 b h s d := by
  rw [val_main_v18_apply]
  simp only [lidx_v18, ridx_v18, attn_at]
  rfl

/-! ## The three result arrays -/

theorem scores_eq : val_main_v6 (F := Ideal) x0 x1 x3 x4 = scoresArr x0 x1 x3 x4 := by
  funext i
  obtain ⟨b, h, s, t, rfl⟩ : ∃ (b : Fin 2) (h : Fin 16) (s t : Fin 2048), i = ix4 b h s t := ⟨i 0, i 1, i 2, i 3, eq_ix4 i⟩
  exact score_at x0 x1 x3 x4 b h s t

theorem attn_eq : val_main_v17 (F := Ideal) x0 x1 x3 x4 = attnArr x0 x1 x3 x4 := by
  funext i
  obtain ⟨b, h, s, t, rfl⟩ : ∃ (b : Fin 2) (h : Fin 16) (s t : Fin 2048), i = ix4 b h s t := ⟨i 0, i 1, i 2, i 3, eq_ix4 i⟩
  exact attn_at x0 x1 x3 x4 b h s t

theorem ctx_eq : val_main_v18 (F := Ideal) x0 x1 x2 x3 x4 = ctxArr x0 x1 x2 x3 x4 := by
  funext i
  obtain ⟨b, h, s, d, rfl⟩ : ∃ (b : Fin 2) (h : Fin 16) (s : Fin 2048) (d : Fin 64), i = ix4 b h s d := ⟨i 0, i 1, i 2, i 3, eq_ix4 i⟩
  exact ctx_at x0 x1 x2 x3 x4 b h s d

end Cert.AttentionRef

end
-- ==== Proof.AttentionPieces.lean ====
/-
  What one grid point's body leaves in each of its three output blocks, as a function of the input blocks.

  The body stores each output block once, whole. So whatever a staging buffer held before, it ends holding the one
  stored value: for the score block the scaled product of the query and key blocks plus the mask rows plus the bias
  block; for the weight block the quotient of the exponentials by their row sums; for the context block the product
  of the weights with the value block. The mask is staged whole and the body reads only the 256 rows that belong to
  the point's query tile: those rows, `maskRows`, are the fourth operand of every term below.
-/
import proofs.«149125_j12171937316878_2_alg».proof.Proof.Gen.KernelIdeal.Frame
import Idealize.ShloMosaic.Lib.Pipeline.Value

noncomputable section

namespace Cert.AttentionPieces

open Idealize.ShloMosaic Idealize.ShloMosaic.TcCoe Idealize.ShloMosaic.Tactic Idealize.SL.Sem
open Cert.KernelIdeal Cert.KernelIdeal.Gen

variable {F : FTy → Type} [FloatOps F]

/-- The all-zero offsets of a whole-block load or store. -/
theorem zero_offsets : (![0, 0, 0, 0] : Fin 4 → Nat) = fun _ => 0 := funext fun a => by fin_cases a <;> rfl

/-- The rows of the whole mask that the body reads at point i: 256 rows starting at 256 times the tile number. -/
abbrev maskRows (i : grid0.Coords) (x3 : Vec F S1x1x2048x2048 .f32) : Vec F S1x1x256x2048 .f32 :=
  View.ld x3 (Rect.unit (s := S1x1x2048x2048) (k0_off1 i) S1x1x256x2048.size (k0_off1_inb i))

variable (c : Dev nD) (i : grid0.Coords) (arg3 : Memref sig .tc .vmem S1x1x256x64 .f32) (harg3 : arg3.IsWhole) (arg4 : Memref sig .tc .vmem S1x1x64x2048 .f32) (harg4 : arg4.IsWhole) (arg5 : Memref sig .tc .vmem S1x1x2048x64 .f32) (harg5 : arg5.IsWhole) (arg6 : Memref sig .tc .vmem S1x1x2048x2048 .f32) (harg6 : arg6.IsWhole) (arg7 : Memref sig .tc .vmem S1x1x256x2048 .f32) (harg7 : arg7.IsWhole) (arg8 : Memref sig .tc .vmem S1x1x256x64 .f32) (harg8 : arg8.IsWhole) (arg9 : Memref sig .tc .vmem S1x1x256x2048 .f32) (harg9 : arg9.IsWhole) (arg10 : Memref sig .tc .vmem S1x1x256x2048 .f32) (harg10 : arg10.IsWhole)
    (x0 : Vec F S1x1x256x64 .f32) (x1 : Vec F S1x1x64x2048 .f32) (x2 : Vec F S1x1x2048x64 .f32) (x3 : Vec F S1x1x2048x2048 .f32) (x4 : Vec F S1x1x256x2048 .f32)

/-- The score block. -/
theorem scores_block :
    out0_A_7 c i arg3 harg3 arg4 harg4 arg5 harg5 arg6 harg6 arg7 harg7 arg8 harg8 arg9 harg9 arg10 harg10 x0 x1 x2 x3 x4 = k0_pay5 x0 x1 (maskRows i x3) x4 := by
  unfold out0_A_7
  rw [View.read_writes_eq_canon _ _ _ (cover0_A_7 c i arg3 harg3 arg4 harg4 arg5 harg5 arg6 harg6 arg7 harg7 arg8 harg8 arg9 harg9 arg10 harg10 x0 x1 x2 x3 x4)]
  unfold kernelRun0_A
  dsimp only
  rw [View.canon_unit_zero zero_offsets]
  simp only [View.readAt_eq_ld, harg3.read_unread, harg4.read_unread, harg6.read_unread, harg7.read_unread,
    View.ld_unit_zero (S := S1x1x256x64) zero_offsets, View.ld_unit_zero (S := S1x1x64x2048) zero_offsets,
    View.ld_unit_zero (S := S1x1x256x2048) zero_offsets]

/-- The weight block. -/
theorem attn_block :
    out0_A_6 c i arg3 harg3 arg4 harg4 arg5 harg5 arg6 harg6 arg7 harg7 arg8 harg8 arg9 harg9 arg10 harg10 x0 x1 x2 x3 x4
      = k0_pay2 (k0_pay6 x0 x1 (maskRows i x3) x4) (k0_pay7 x0 x1 (maskRows i x3) x4) := by
  unfold out0_A_6
  rw [View.read_writes_eq_canon _ _ _ (cover0_A_6 c i arg3 harg3 arg4 harg4 arg5 harg5 arg6 harg6 arg7 harg7 arg8 harg8 arg9 harg9 arg10 harg10 x0 x1 x2 x3 x4)]
  unfold kernelRun0_A
  dsimp only
  rw [View.canon_unit_zero zero_offsets]
  sl_unfold_run_names
  simp only [View.readAt_eq_ld, harg3.read_unread, harg4.read_unread, harg6.read_unread, harg7.read_unread,
    View.ld_unit_zero (S := S1x1x256x64) zero_offsets, View.ld_unit_zero (S := S1x1x64x2048) zero_offsets,
    View.ld_unit_zero (S := S1x1x256x2048) zero_offsets]

/-- The context block. -/
theorem ctx_block :
    out0_A_5 c i arg3 harg3 arg4 harg4 arg5 harg5 arg6 harg6 arg7 harg7 arg8 harg8 arg9 harg9 arg10 harg10 x0 x1 x2 x3 x4
      = k0_pay3 (k0_pay6 x0 x1 (maskRows i x3) x4) (k0_pay7 x0 x1 (maskRows i x3) x4) x2 := by
  unfold out0_A_5
  rw [View.read_writes_eq_canon _ _ _ (cover0_A_5 c i arg3 harg3 arg4 harg4 arg5 harg5 arg6 harg6 arg7 harg7 arg8 harg8 arg9 harg9 arg10 harg10 x0 x1 x2 x3 x4)]
  unfold kernelRun0_A
  dsimp only
  rw [View.canon_unit_zero zero_offsets]
  sl_unfold_run_names
  simp only [View.readAt_eq_ld, harg3.read_unread, harg4.read_unread, harg5.read_unread, harg6.read_unread, harg7.read_unread,
    View.ld_unit_zero (S := S1x1x256x64) zero_offsets, View.ld_unit_zero (S := S1x1x64x2048) zero_offsets,
    View.ld_unit_zero (S := S1x1x2048x64) zero_offsets, View.ld_unit_zero (S := S1x1x256x2048) zero_offsets]

end Cert.AttentionPieces

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.AttentionTile.lean ====
/-
  One tile of attention, read entry by entry over the extended reals.

  A grid point works on a tile: 256 queries (a block Q of shape [1,1,256,64]) against all 2048 keys (a block K of
  shape [1,1,64,2048]) and values (a block V of shape [1,1,2048,64]), with the 256 matching rows of the mask (Mr) and
  of the bias (P), both of shape [1,1,256,2048]. Each block is cast to a matrix by dropping its two unit axes, the
  results are cast back. Entry by entry:

    tileScore(r, c)  = ((Σ_d Q[r,d] · K[d,c]) · 1/8 + Mr[r,c]) + P[r,c]
    the weight block = the softmax of each row of tileScore
    the context block at (r, d) = Σ_t weight(r, t) · V[t, d]

  A change of float format is the identity here, a matrix product into the zero accumulator is the plain sum over the
  contracted index, a lane maximum is the fold of max from its initial value, and a lane sum is the sum.
-/
import proofs.«149125_j12171937316878_2_alg».proof.Proof.Gen.KernelIdeal.Skeleton
import proofs.«149125_j12171937316878_2_alg».proof.Proof.AttentionSpec
import proofs.«149125_j12171937316878_2_alg».proof.Proof.LibMatmulRowsByCols
import proofs.«149125_j12171937316878_2_alg».proof.Proof.LibColumnLayout
import Idealize.ShloMosaic.Lib.Pipeline.Value
import Idealize.ShloMosaic.Lib.ValueIdx
import Idealize.ShloMosaic.PureOps.Ideal.Laws

noncomputable section

namespace Cert.AttentionTile

open Idealize.ShloMosaic Idealize.ShloMosaic.ValueIdx
open Cert.KernelIdeal Cert.KernelIdeal.Gen Cert.AttentionSpec

/-! ## A block and its matrix -/

section Casts
variable {α : Type}

/-- A block [1, 1, a, b] cast to the matrix [a, b] reads, at (r, c), the block at (0, 0, r, c): both sit at row-major
    position r·b + c. -/
theorem cast_block_matrix {a b : ℕ} (x : (⟨4, ![1, 1, a, b]⟩ : Shape).Idx → α)
    (h : (⟨4, ![1, 1, a, b]⟩ : Shape).ShapeCasts ⟨2, ![a, b]⟩) (r : Fin a) (c : Fin b) :
    shapeCast ⟨2, ![a, b]⟩ x h (ix2 r c) = x (ix4 (0 : Fin 1) (0 : Fin 1) r c) :=
  shapeCast_apply x h _ _ (by
    rw [Shape.rowMajor_val_four, Shape.rowMajor_val_two]
    show ((0 * 1 + 0) * a + r.val) * b + c.val = r.val * b + c.val
    simp)

/-- A matrix [a, b] cast to the block [1, 1, a, b] reads, at (u, v, r, c), the matrix at (r, c). -/
theorem cast_matrix_block {a b : ℕ} (x : (⟨2, ![a, b]⟩ : Shape).Idx → α)
    (h : (⟨2, ![a, b]⟩ : Shape).ShapeCasts ⟨4, ![1, 1, a, b]⟩) (u v : Fin 1) (r : Fin a) (c : Fin b) :
    shapeCast ⟨4, ![1, 1, a, b]⟩ x h (ix4 u v r c) = x (ix2 r c) :=
  shapeCast_apply x h _ _ (by
    have hu : u.val = 0 := by omega
    have hv : v.val = 0 := by omega
    rw [Shape.rowMajor_val_four, Shape.rowMajor_val_two]
    show r.val * b + c.val = ((u.val * 1 + v.val) * a + r.val) * b + c.val
    rw [hu, hv]
    simp)

end Casts

/-! ## The tile's scores -/

variable (x0 : S1x1x256x64.Idx → EReal) (x1 : S1x1x64x2048.Idx → EReal) (x2 : S1x1x2048x64.Idx → EReal)
  (xm : S1x1x256x2048.Idx → EReal) (x4 : S1x1x256x2048.Idx → EReal)

/-- The score of the tile's query r against key c. -/
def tileScore (r : Fin 256) (c : Fin 2048) : EReal :=
  ((∑ d : Fin 64, x0 (ix4 (0 : Fin 1) (0 : Fin 1) r d) * x1 (ix4 (0 : Fin 1) (0 : Fin 1) d c))
      * Ideal.ofBits .f32 0x3E000000#32
    + xm (ix4 (0 : Fin 1) (0 : Fin 1) r c)) + x4 (ix4 (0 : Fin 1) (0 : Fin 1) r c)

/-- The score matrix at (r, c). -/
theorem score_matrix_at (r : Fin 256) (c : Fin 2048) :
    k0_pay4 (F := Ideal) x0 x1 xm x4 (ix2 r c) = tileScore x0 x1 xm x4 r c := by
  unfold k0_pay4
  rw [addf_apply, addf_apply, mulf_apply, broadcast_apply, cast_block_matrix, cast_block_matrix,
    Cert.RowsByCols.matmul_zero_apply _ ⟨rfl, rfl, rfl, rfl, rfl, rfl⟩]
  simp only [truncf_apply, cast_block_matrix]
  rfl

/-- The score block at (0, 0, r, c). -/
theorem score_block_at (r : Fin 256) (c : Fin 2048) :
    k0_pay5 (F := Ideal) x0 x1 xm x4 (ix4 (0 : Fin 1) (0 : Fin 1) r c) = tileScore x0 x1 xm x4 r c := by
  unfold k0_pay5
  rw [cast_matrix_block, score_matrix_at]

/-! ## The softmax of the tile's rows -/

/-- Key c put back on the reduced axis of row r is (r, c). -/
theorem lift_cols (h : S256x2048.Reduces [1] S256) (r : Fin 256) (c : Fin 2048) : h.lift (ix1 r) c = ix2 r c :=
  funext fun a => Fin.ext (by match a with | ⟨0, _⟩ => rfl | ⟨1, _⟩ => rfl)

/-- A lane maximum from -∞ over the columns of a [256, 2048] matrix, at row r: the fold of max over the row. -/
theorem lane_max_at (src : FVec Ideal S256x2048 .f32) (h : S256x2048.Reduces [1] S256) (hφ : FKind.Formats .f32)
    (hacc : (0xFF800000#32 : BitVec 32) = 0xFF800000#32) (r : Fin 256) :
    multiReduction .maximumf [1] S256 src 0xFF800000#32 h hφ hacc (ix1 r)
      = (Finset.univ : Finset (Fin 2048)).fold max (Ideal.ofBits .f32 0xFF800000#32) (fun c => src (ix2 r c)) :=
  (Ideal.multiReduction_maximumf_single src 0xFF800000#32 h hφ hacc (ix1 r)).trans
    (congrArg (fun f => (Finset.univ : Finset (Fin 2048)).fold max (Ideal.ofBits .f32 0xFF800000#32) f)
      (funext fun c => congrArg src (lift_cols h r c)))

/-- A lane sum from zero over the columns of a [256, 2048] matrix, at row r: the sum over the row. -/
theorem lane_sum_at (src : FVec Ideal S256x2048 .f32) (h : S256x2048.Reduces [1] S256) (hφ : FKind.Formats .f32)
    (hacc : (0x00000000#32 : BitVec 32) = 0x00000000#32) (r : Fin 256) :
    multiReduction .add [1] S256 src 0x00000000#32 h hφ hacc (ix1 r) = ∑ c : Fin 2048, src (ix2 r c) :=
  (Ideal.multiReduction_add_single src 0x00000000#32 h hφ hacc (ix1 r)).trans
    (Finset.sum_congr rfl fun c _ => congrArg src (lift_cols h r c))

/-- The row maximum: the lane maximum from -∞, and once more against -∞. -/
theorem row_max_at (r : Fin 256) :
    maximumf (F := Ideal) (broadcast S256 (Scalar.ofBits .f32 0xFF800000#32))
        (multiReduction .maximumf [1] S256 (k0_pay4 (F := Ideal) x0 x1 xm x4) 0xFF800000#32 reduces_S256x2048_S256 (.inl rfl) rfl)
        (ix1 r)
      = rowMax (fun c => tileScore x0 x1 xm x4 r c) := by
  refine (congrArg (max (Ideal.ofBits .f32 0xFF800000#32))
    (lane_max_at (k0_pay4 (F := Ideal) x0 x1 xm x4) reduces_S256x2048_S256 (.inl rfl) rfl r)).trans ?_
  have hrow : (fun c : Fin 2048 => k0_pay4 (F := Ideal) x0 x1 xm x4 (ix2 r c))
      = fun c : Fin 2048 => tileScore x0 x1 xm x4 r c :=
    funext fun c => score_matrix_at x0 x1 xm x4 r c
  rw [hrow]
  rfl

/-- The exponentials at (r, c). -/
theorem exp_matrix_at (r : Fin 256) (c : Fin 2048) :
    k0_pay6 (F := Ideal) x0 x1 xm x4 (ix2 r c) = rowExp (fun c' => tileScore x0 x1 xm x4 r c') c := by
  unfold k0_pay6
  show Ideal.exp (_ - _) = _
  rw [Cert.LibColumnLayout.broadcastTo_a1_ab_apply, Cert.LibColumnLayout.shapeCast_a_a1_apply, row_max_at, score_matrix_at]
  rfl

/-- The broadcast row sums at (r, c). -/
theorem sum_matrix_at (r : Fin 256) (c : Fin 2048) :
    k0_pay7 (F := Ideal) x0 x1 xm x4 (ix2 r c) = rowSum (fun c' => tileScore x0 x1 xm x4 r c') := by
  unfold k0_pay7
  rw [Cert.LibColumnLayout.broadcastTo_a1_ab_apply, Cert.LibColumnLayout.shapeCast_a_a1_apply]
  refine (lane_sum_at (k0_pay6 (F := Ideal) x0 x1 xm x4) reduces_S256x2048_S256 (.inl rfl) rfl r).trans ?_
  unfold rowSum
  exact Finset.sum_congr rfl fun c' _ => exp_matrix_at x0 x1 xm x4 r c'

/-- The weights at (r, c). -/
theorem weight_matrix_at (r : Fin 256) (c : Fin 2048) :
    k0_pay1 (F := Ideal) (k0_pay6 (F := Ideal) x0 x1 xm x4) (k0_pay7 (F := Ideal) x0 x1 xm x4) (ix2 r c)
      = rowSoftmax (fun c' => tileScore x0 x1 xm x4 r c') c := by
  unfold k0_pay1
  rw [divf_apply, exp_matrix_at, sum_matrix_at]
  rfl

/-- The weight block at (0, 0, r, c). -/
theorem weight_block_at (r : Fin 256) (c : Fin 2048) :
    k0_pay2 (F := Ideal) (k0_pay6 (F := Ideal) x0 x1 xm x4) (k0_pay7 (F := Ideal) x0 x1 xm x4) (ix4 (0 : Fin 1) (0 : Fin 1) r c)
      = rowSoftmax (fun c' => tileScore x0 x1 xm x4 r c') c := by
  unfold k0_pay2
  rw [cast_matrix_block, weight_matrix_at]

/-! ## The tile's context -/

/-- The context block at (0, 0, r, d). -/
theorem ctx_block_at (r : Fin 256) (d : Fin 64) :
    k0_pay3 (F := Ideal) (k0_pay6 (F := Ideal) x0 x1 xm x4) (k0_pay7 (F := Ideal) x0 x1 xm x4) x2 (ix4 (0 : Fin 1) (0 : Fin 1) r d)
      = ∑ t : Fin 2048, rowSoftmax (fun c' => tileScore x0 x1 xm x4 r c') t * x2 (ix4 (0 : Fin 1) (0 : Fin 1) t d) := by
  unfold k0_pay3
  rw [cast_matrix_block, Cert.RowsByCols.matmul_zero_apply _ ⟨rfl, rfl, rfl, rfl, rfl, rfl⟩]
  refine Finset.sum_congr rfl fun t _ => ?_
  rw [truncf_apply, truncf_apply, weight_matrix_at, cast_block_matrix]

end Cert.AttentionTile

end
-- ==== Proof.AttentionBlocks.lean ====
/-
  Where a grid point's blocks sit in the whole arrays.

  The grid is (batch b, head h, query tile n): 2 × 16 × 8 points. At a point the query, bias and the three output
  windows take block (b, h, n, 0): rows 256·n … 256·n + 255 of head (b, h). The key and value windows take block
  (b, h, 0, 0): the whole head. The mask window takes block (0, 0, 0, 0), the whole mask, and the body reads its rows
  256·n … 256·n + 255. So an element (0, 0, r, ·) of a block is the element (b, h, 256·n + r, ·) of its array (for the
  mask: (0, 0, 256·n + r, ·)), and (0, 0, k, ·) of a key or value block is (b, h, k, ·).

  The relations between the eight printed index maps and the point's grid coordinates are decided once, over the 256
  points; everything else is arithmetic on coordinates.
-/
import proofs.«149125_j12171937316878_2_alg».proof.Proof.Gen.KernelIdeal.Value
import proofs.«149125_j12171937316878_2_alg».proof.Proof.AttentionPieces
import Idealize.ShloMosaic.Lib.ValueIdx

noncomputable section

namespace Cert.AttentionBlocks

open Idealize.ShloMosaic Idealize.ShloMosaic.TcCoe Idealize.SL.Sem Idealize.ShloMosaic.ValueIdx
open Cert.KernelIdeal Cert.KernelIdeal.Gen Cert.AttentionPieces

/-! ## The index maps over the grid -/

/-- The query, bias and output windows follow all three grid coordinates. -/
theorem tiled_index : ∀ t : Fin cfg0.N,
    (win0_0.index t (0 : Fin 4) = (grid0.coords t 0).val ∧ win0_0.index t (1 : Fin 4) = (grid0.coords t 1).val
      ∧ win0_0.index t (2 : Fin 4) = (grid0.coords t 2).val ∧ win0_0.index t (3 : Fin 4) = 0)
    ∧ (win0_4.index t (0 : Fin 4) = (grid0.coords t 0).val ∧ win0_4.index t (1 : Fin 4) = (grid0.coords t 1).val
      ∧ win0_4.index t (2 : Fin 4) = (grid0.coords t 2).val ∧ win0_4.index t (3 : Fin 4) = 0)
    ∧ (win0_5.index t (0 : Fin 4) = (grid0.coords t 0).val ∧ win0_5.index t (1 : Fin 4) = (grid0.coords t 1).val
      ∧ win0_5.index t (2 : Fin 4) = (grid0.coords t 2).val ∧ win0_5.index t (3 : Fin 4) = 0)
    ∧ (win0_6.index t (0 : Fin 4) = (grid0.coords t 0).val ∧ win0_6.index t (1 : Fin 4) = (grid0.coords t 1).val
      ∧ win0_6.index t (2 : Fin 4) = (grid0.coords t 2).val ∧ win0_6.index t (3 : Fin 4) = 0)
    ∧ (win0_7.index t (0 : Fin 4) = (grid0.coords t 0).val ∧ win0_7.index t (1 : Fin 4) = (grid0.coords t 1).val
      ∧ win0_7.index t (2 : Fin 4) = (grid0.coords t 2).val ∧ win0_7.index t (3 : Fin 4) = 0) :=
  (by decide +kernel : ∀ t : Fin grid0.N, _)

/-- The key and value windows follow batch and head only; the mask window does not move. -/
theorem whole_index : ∀ t : Fin cfg0.N,
    (win0_1.index t (0 : Fin 4) = (grid0.coords t 0).val ∧ win0_1.index t (1 : Fin 4) = (grid0.coords t 1).val
      ∧ win0_1.index t (2 : Fin 4) = 0 ∧ win0_1.index t (3 : Fin 4) = 0)
    ∧ (win0_2.index t (0 : Fin 4) = (grid0.coords t 0).val ∧ win0_2.index t (1 : Fin 4) = (grid0.coords t 1).val
      ∧ win0_2.index t (2 : Fin 4) = 0 ∧ win0_2.index t (3 : Fin 4) = 0)
    ∧ (win0_3.index t (0 : Fin 4) = 0 ∧ win0_3.index t (1 : Fin 4) = 0
      ∧ win0_3.index t (2 : Fin 4) = 0 ∧ win0_3.index t (3 : Fin 4) = 0) :=
  (by decide +kernel : ∀ t : Fin grid0.N, _)

/-- Every (batch, head, tile) is some point's. -/
theorem point_onto : ∀ (q0 : Fin 2) (q1 : Fin 16) (q2 : Fin 8), ∃ t : Fin cfg0.N,
    (grid0.coords t 0).val = q0.val ∧ (grid0.coords t 1).val = q1.val ∧ (grid0.coords t 2).val = q2.val :=
  (by decide +kernel : ∀ (q0 : Fin 2) (q1 : Fin 16) (q2 : Fin 8), ∃ t : Fin grid0.N, _)

/-! ## A point's head and rows -/

/-- The point's batch. -/
def headB (t : Fin cfg0.N) : Fin 2 := ⟨(grid0.coords t 0).val, (grid0.coords t 0).isLt⟩
/-- The point's head. -/
def headH (t : Fin cfg0.N) : Fin 16 := ⟨(grid0.coords t 1).val, (grid0.coords t 1).isLt⟩
/-- The point's query tile. -/
def tileNo (t : Fin cfg0.N) : Fin 8 := ⟨(grid0.coords t 2).val, (grid0.coords t 2).isLt⟩
/-- Row r of the point's tile, as a row of the head. -/
def rowOf (t : Fin cfg0.N) (r : Fin 256) : Fin 2048 :=
  ⟨(tileNo t).val * 256 + r.val, by have := (tileNo t).isLt; have := r.isLt; omega⟩

variable (m : (ℓ : Loc nD τ sig) → Buf (Elt Ideal) ℓ)

/-! ## The input blocks -/

/-- The query block. -/
theorem q_block (c : Dev nD) (t : Fin cfg0.N) (r : Fin 256) (d : Fin 64) :
    iblk m c 0 t (ix4 (0 : Fin 1) (0 : Fin 1) r d) = V m c main_arg0 (ix4 (headB t) (headH t) (rowOf t r) d) := by
  obtain ⟨⟨e0, e1, e2, e3⟩, -⟩ := tiled_index t
  show V m c main_arg0 (((cfg0.win 0).blk t).view.emb (ix4 (0 : Fin 1) (0 : Fin 1) r d)) = _
  refine congrArg (V m c main_arg0) (funext fun a => Fin.ext ?_)
  match a with
  | ⟨0, _⟩ => show win0_0.index t (0 : Fin 4) * 1 + 1 * 0 = (grid0.coords t 0).val; omega
  | ⟨1, _⟩ => show win0_0.index t (1 : Fin 4) * 1 + 1 * 0 = (grid0.coords t 1).val; omega
  | ⟨2, _⟩ => show win0_0.index t (2 : Fin 4) * 256 + 1 * r.val = (grid0.coords t 2).val * 256 + r.val; omega
  | ⟨3, _⟩ => show win0_0.index t (3 : Fin 4) * 64 + 1 * d.val = d.val; omega

/-- The key block: the whole head. -/
theorem k_block (c : Dev nD) (t : Fin cfg0.N) (d : Fin 64) (cc : Fin 2048) :
    iblk m c 1 t (ix4 (0 : Fin 1) (0 : Fin 1) d cc) = V m c main_arg1 (ix4 (headB t) (headH t) d cc) := by
  obtain ⟨⟨e0, e1, e2, e3⟩, -⟩ := whole_index t
  show V m c main_arg1 (((cfg0.win 1).blk t).view.emb (ix4 (0 : Fin 1) (0 : Fin 1) d cc)) = _
  refine congrArg (V m c main_arg1) (funext fun a => Fin.ext ?_)
  match a with
  | ⟨0, _⟩ => show win0_1.index t (0 : Fin 4) * 1 + 1 * 0 = (grid0.coords t 0).val; omega
  | ⟨1, _⟩ => show win0_1.index t (1 : Fin 4) * 1 + 1 * 0 = (grid0.coords t 1).val; omega
  | ⟨2, _⟩ => show win0_1.index t (2 : Fin 4) * 64 + 1 * d.val = d.val; omega
  | ⟨3, _⟩ => show win0_1.index t (3 : Fin 4) * 2048 + 1 * cc.val = cc.val; omega

/-- The value block: the whole head. -/
theorem v_block (c : Dev nD) (t : Fin cfg0.N) (k : Fin 2048) (d : Fin 64) :
    iblk m c 2 t (ix4 (0 : Fin 1) (0 : Fin 1) k d) = V m c main_arg2 (ix4 (headB t) (headH t) k d) := by
  obtain ⟨-, ⟨e0, e1, e2, e3⟩, -⟩ := whole_index t
  show V m c main_arg2 (((cfg0.win 2).blk t).view.emb (ix4 (0 : Fin 1) (0 : Fin 1) k d)) = _
  refine congrArg (V m c main_arg2) (funext fun a => Fin.ext ?_)
  match a with
  | ⟨0, _⟩ => show win0_2.index t (0 : Fin 4) * 1 + 1 * 0 = (grid0.coords t 0).val; omega
  | ⟨1, _⟩ => show win0_2.index t (1 : Fin 4) * 1 + 1 * 0 = (grid0.coords t 1).val; omega
  | ⟨2, _⟩ => show win0_2.index t (2 : Fin 4) * 2048 + 1 * k.val = k.val; omega
  | ⟨3, _⟩ => show win0_2.index t (3 : Fin 4) * 64 + 1 * d.val = d.val; omega

/-- The bias block. -/
theorem p_block (c : Dev nD) (t : Fin cfg0.N) (r : Fin 256) (cc : Fin 2048) :
    iblk m c 4 t (ix4 (0 : Fin 1) (0 : Fin 1) r cc) = V m c main_arg3 (ix4 (headB t) (headH t) (rowOf t r) cc) := by
  obtain ⟨-, ⟨e0, e1, e2, e3⟩, -⟩ := tiled_index t
  show V m c main_arg3 (((cfg0.win 4).blk t).view.emb (ix4 (0 : Fin 1) (0 : Fin 1) r cc)) = _
  refine congrArg (V m c main_arg3) (funext fun a => Fin.ext ?_)
  match a with
  | ⟨0, _⟩ => show win0_4.index t (0 : Fin 4) * 1 + 1 * 0 = (grid0.coords t 0).val; omega
  | ⟨1, _⟩ => show win0_4.index t (1 : Fin 4) * 1 + 1 * 0 = (grid0.coords t 1).val; omega
  | ⟨2, _⟩ => show win0_4.index t (2 : Fin 4) * 256 + 1 * r.val = (grid0.coords t 2).val * 256 + r.val; omega
  | ⟨3, _⟩ => show win0_4.index t (3 : Fin 4) * 2048 + 1 * cc.val = cc.val; omega

/-- The rows of the mask the body reads at the point: rows 256·n … 256·n + 255 of the whole mask. -/
theorem mask_rows (c : Dev nD) (t : Fin cfg0.N) (r : Fin 256) (cc : Fin 2048) :
    maskRows (grid0.coords t) (iblk m c 3 t) (ix4 (0 : Fin 1) (0 : Fin 1) r cc)
      = V m c main_arg4 (ix4 (0 : Fin 1) (0 : Fin 1) (rowOf t r) cc) := by
  obtain ⟨-, -, ⟨e0, e1, e2, e3⟩⟩ := whole_index t
  have o0 : k0_off1 (grid0.coords t) (0 : Fin 4) = 0 := congrFun (k0_off1_eq (grid0.coords t)) 0
  have o1 : k0_off1 (grid0.coords t) (1 : Fin 4) = 0 := congrFun (k0_off1_eq (grid0.coords t)) 1
  have o2 : k0_off1 (grid0.coords t) (2 : Fin 4) = 256 * (grid0.coords t 2).val := congrFun (k0_off1_eq (grid0.coords t)) 2
  have o3 : k0_off1 (grid0.coords t) (3 : Fin 4) = 0 := congrFun (k0_off1_eq (grid0.coords t)) 3
  show V m c main_arg4 (((cfg0.win 3).blk t).view.emb
      ((Rect.unit (s := S1x1x2048x2048) (k0_off1 (grid0.coords t)) S1x1x256x2048.size (k0_off1_inb (grid0.coords t))).idx
        (ix4 (0 : Fin 1) (0 : Fin 1) r cc))) = _
  refine congrArg (V m c main_arg4) (funext fun a => Fin.ext ?_)
  match a with
  | ⟨0, _⟩ => show win0_3.index t (0 : Fin 4) * 1 + 1 * (k0_off1 (grid0.coords t) (0 : Fin 4) + 1 * 0) = 0; omega
  | ⟨1, _⟩ => show win0_3.index t (1 : Fin 4) * 1 + 1 * (k0_off1 (grid0.coords t) (1 : Fin 4) + 1 * 0) = 0; omega
  | ⟨2, _⟩ =>
    show win0_3.index t (2 : Fin 4) * 2048 + 1 * (k0_off1 (grid0.coords t) (2 : Fin 4) + 1 * r.val)
      = (grid0.coords t 2).val * 256 + r.val
    omega
  | ⟨3, _⟩ => show win0_3.index t (3 : Fin 4) * 2048 + 1 * (k0_off1 (grid0.coords t) (3 : Fin 4) + 1 * cc.val) = cc.val; omega

/-! ## The output blocks -/

/-- An element of the point's context block, in the context array. -/
theorem ctx_emb (t : Fin cfg0.N) (r : Fin 256) (d : Fin 64) :
    ((cfg0.win 5).blk t).view.emb (ix4 (0 : Fin 1) (0 : Fin 1) r d) = ix4 (headB t) (headH t) (rowOf t r) d := by
  obtain ⟨-, -, ⟨e0, e1, e2, e3⟩, -⟩ := tiled_index t
  refine funext fun a => Fin.ext ?_
  match a with
  | ⟨0, _⟩ => show win0_5.index t (0 : Fin 4) * 1 + 1 * 0 = (grid0.coords t 0).val; omega
  | ⟨1, _⟩ => show win0_5.index t (1 : Fin 4) * 1 + 1 * 0 = (grid0.coords t 1).val; omega
  | ⟨2, _⟩ => show win0_5.index t (2 : Fin 4) * 256 + 1 * r.val = (grid0.coords t 2).val * 256 + r.val; omega
  | ⟨3, _⟩ => show win0_5.index t (3 : Fin 4) * 64 + 1 * d.val = d.val; omega

/-- An element of the point's weight block, in the weight array. -/
theorem attn_emb (t : Fin cfg0.N) (r : Fin 256) (cc : Fin 2048) :
    ((cfg0.win 6).blk t).view.emb (ix4 (0 : Fin 1) (0 : Fin 1) r cc) = ix4 (headB t) (headH t) (rowOf t r) cc := by
  obtain ⟨-, -, -, ⟨e0, e1, e2, e3⟩, -⟩ := tiled_index t
  refine funext fun a => Fin.ext ?_
  match a with
  | ⟨0, _⟩ => show win0_6.index t (0 : Fin 4) * 1 + 1 * 0 = (grid0.coords t 0).val; omega
  | ⟨1, _⟩ => show win0_6.index t (1 : Fin 4) * 1 + 1 * 0 = (grid0.coords t 1).val; omega
  | ⟨2, _⟩ => show win0_6.index t (2 : Fin 4) * 256 + 1 * r.val = (grid0.coords t 2).val * 256 + r.val; omega
  | ⟨3, _⟩ => show win0_6.index t (3 : Fin 4) * 2048 + 1 * cc.val = cc.val; omega

/-- An element of the point's score block, in the score array. -/
theorem scores_emb (t : Fin cfg0.N) (r : Fin 256) (cc : Fin 2048) :
    ((cfg0.win 7).blk t).view.emb (ix4 (0 : Fin 1) (0 : Fin 1) r cc) = ix4 (headB t) (headH t) (rowOf t r) cc := by
  obtain ⟨-, -, -, -, ⟨e0, e1, e2, e3⟩⟩ := tiled_index t
  refine funext fun a => Fin.ext ?_
  match a with
  | ⟨0, _⟩ => show win0_7.index t (0 : Fin 4) * 1 + 1 * 0 = (grid0.coords t 0).val; omega
  | ⟨1, _⟩ => show win0_7.index t (1 : Fin 4) * 1 + 1 * 0 = (grid0.coords t 1).val; omega
  | ⟨2, _⟩ => show win0_7.index t (2 : Fin 4) * 256 + 1 * r.val = (grid0.coords t 2).val * 256 + r.val; omega
  | ⟨3, _⟩ => show win0_7.index t (3 : Fin 4) * 2048 + 1 * cc.val = cc.val; omega

end Cert.AttentionBlocks

end
-- ==== Proof.AttentionArrays.lean ====
/-
  The three arrays the kernel leaves are the attention specification's.

  At every grid point the three output blocks are written back, and each is the matching block of ONE whole-array
  function of the arguments: the tile's scores are the specification's scores at the tile's rows of the point's head,
  so the softmax of a tile row is the softmax of that row of the head, and the tile's context is the head's context at
  those rows. The blocks of the 2 × 16 × 8 points tile each array exactly (batch × head × 8 tiles of 256 rows), so after
  the run each array holds that function everywhere.
-/
import proofs.«149125_j12171937316878_2_alg».proof.Proof.Gen.KernelIdeal.Value
import proofs.«149125_j12171937316878_2_alg».proof.Proof.AttentionSpec
import proofs.«149125_j12171937316878_2_alg».proof.Proof.AttentionPieces
import proofs.«149125_j12171937316878_2_alg».proof.Proof.AttentionTile
import proofs.«149125_j12171937316878_2_alg».proof.Proof.AttentionBlocks

noncomputable section

namespace Cert.AttentionArrays

open Idealize.ShloMosaic Idealize.ShloMosaic.TcCoe Idealize.SL.Sem Idealize.ShloMosaic.ValueIdx
open Idealize.ShloMosaic.Pipeline (Dat)
open Cert.KernelIdeal Cert.KernelIdeal.Gen
open Cert.AttentionSpec Cert.AttentionPieces Cert.AttentionTile Cert.AttentionBlocks

variable (m : (ℓ : Loc nD τ sig) → Buf (Elt Ideal) ℓ) (ρ : Dev nD → PrngReg)

/-! ## A tile's scores are the head's -/

/-- The tile's score of row r against key cc is the specification's score of that row of the point's head. -/
theorem tile_score (c : Dev nD) (t : Fin cfg0.N) (r : Fin 256) (cc : Fin 2048) :
    tileScore (iblk m c 0 t) (iblk m c 1 t) (maskRows (grid0.coords t) (iblk m c 3 t)) (iblk m c 4 t) r cc = score (V m c main_arg0) (V m c main_arg1) (V m c main_arg3) (V m c main_arg4) (headB t) (headH t) (rowOf t r) cc := by
  unfold tileScore score
  rw [mask_rows, p_block]
  simp only [q_block, k_block]

/-- So a tile row is the head's row. -/
theorem tile_row (c : Dev nD) (t : Fin cfg0.N) (r : Fin 256) :
    (fun cc : Fin 2048 => tileScore (iblk m c 0 t) (iblk m c 1 t) (maskRows (grid0.coords t) (iblk m c 3 t)) (iblk m c 4 t) r cc)
      = fun cc : Fin 2048 => score (V m c main_arg0) (V m c main_arg1) (V m c main_arg3) (V m c main_arg4) (headB t) (headH t) (rowOf t r) cc :=
  funext fun cc => tile_score m c t r cc

/-! ## What each point writes back -/

/-- The score block of point t is block t of the score array. -/
theorem scores_flushed (c : Dev nD) (t : Fin cfg0.N) :
    (dats m 0 c).flushed 7 t = ((cfg0.win 7).blk t).view.read (Elt Ideal) (scoresArr (V m c main_arg0) (V m c main_arg1) (V m c main_arg3) (V m c main_arg4)) := by
  rw [Cert.KernelIdeal.Value.flushed7_A m c t, scores_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t)]
  refine funext fun (y : S1x1x256x2048.Idx) => ?_
  obtain ⟨u, v, r, cc, rfl⟩ : ∃ (u v : Fin 1) (r : Fin 256) (cc : Fin 2048), y = ix4 u v r cc :=
    ⟨y 0, y 1, y 2, y 3, eq_ix4 y⟩
  obtain rfl : u = 0 := Subsingleton.elim _ _
  obtain rfl : v = 0 := Subsingleton.elim _ _
  show k0_pay5 (F := Ideal) (iblk m c 0 t) (iblk m c 1 t) (maskRows (grid0.coords t) (iblk m c 3 t)) (iblk m c 4 t) (ix4 (0 : Fin 1) (0 : Fin 1) r cc)
      = scoresArr (V m c main_arg0) (V m c main_arg1) (V m c main_arg3) (V m c main_arg4) (((cfg0.win 7).blk t).view.emb (ix4 (0 : Fin 1) (0 : Fin 1) r cc))
  rw [scores_emb, score_block_at, tile_score]
  rfl

/-- The weight block of point t is block t of the weight array. -/
theorem attn_flushed (c : Dev nD) (t : Fin cfg0.N) :
    (dats m 0 c).flushed 6 t = ((cfg0.win 6).blk t).view.read (Elt Ideal) (attnArr (V m c main_arg0) (V m c main_arg1) (V m c main_arg3) (V m c main_arg4)) := by
  rw [Cert.KernelIdeal.Value.flushed6_A m c t, attn_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t)]
  refine funext fun (y : S1x1x256x2048.Idx) => ?_
  obtain ⟨u, v, r, cc, rfl⟩ : ∃ (u v : Fin 1) (r : Fin 256) (cc : Fin 2048), y = ix4 u v r cc :=
    ⟨y 0, y 1, y 2, y 3, eq_ix4 y⟩
  obtain rfl : u = 0 := Subsingleton.elim _ _
  obtain rfl : v = 0 := Subsingleton.elim _ _
  show k0_pay2 (F := Ideal) (k0_pay6 (F := Ideal) (iblk m c 0 t) (iblk m c 1 t) (maskRows (grid0.coords t) (iblk m c 3 t)) (iblk m c 4 t)) (k0_pay7 (F := Ideal) (iblk m c 0 t) (iblk m c 1 t) (maskRows (grid0.coords t) (iblk m c 3 t)) (iblk m c 4 t)) (ix4 (0 : Fin 1) (0 : Fin 1) r cc)
      = attnArr (V m c main_arg0) (V m c main_arg1) (V m c main_arg3) (V m c main_arg4) (((cfg0.win 6).blk t).view.emb (ix4 (0 : Fin 1) (0 : Fin 1) r cc))
  rw [attn_emb, weight_block_at, tile_row]
  rfl

/-- The context block of point t is block t of the context array. -/
theorem ctx_flushed (c : Dev nD) (t : Fin cfg0.N) :
    (dats m 0 c).flushed 5 t = ((cfg0.win 5).blk t).view.read (Elt Ideal) (ctxArr (V m c main_arg0) (V m c main_arg1) (V m c main_arg2) (V m c main_arg3) (V m c main_arg4)) := by
  rw [Cert.KernelIdeal.Value.flushed5_A m c t, ctx_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t)]
  refine funext fun (y : S1x1x256x64.Idx) => ?_
  obtain ⟨u, v, r, d, rfl⟩ : ∃ (u v : Fin 1) (r : Fin 256) (d : Fin 64), y = ix4 u v r d :=
    ⟨y 0, y 1, y 2, y 3, eq_ix4 y⟩
  obtain rfl : u = 0 := Subsingleton.elim _ _
  obtain rfl : v = 0 := Subsingleton.elim _ _
  show k0_pay3 (F := Ideal) (k0_pay6 (F := Ideal) (iblk m c 0 t) (iblk m c 1 t) (maskRows (grid0.coords t) (iblk m c 3 t)) (iblk m c 4 t)) (k0_pay7 (F := Ideal) (iblk m c 0 t) (iblk m c 1 t) (maskRows (grid0.coords t) (iblk m c 3 t)) (iblk m c 4 t)) (iblk m c 2 t) (ix4 (0 : Fin 1) (0 : Fin 1) r d)
      = ctxArr (V m c main_arg0) (V m c main_arg1) (V m c main_arg2) (V m c main_arg3) (V m c main_arg4) (((cfg0.win 5).blk t).view.emb (ix4 (0 : Fin 1) (0 : Fin 1) r d))
  rw [ctx_emb, ctx_block_at, tile_row]
  show (∑ k : Fin 2048, rowSoftmax (fun cc : Fin 2048 => score (V m c main_arg0) (V m c main_arg1) (V m c main_arg3) (V m c main_arg4) (headB t) (headH t) (rowOf t r) cc) k
        * iblk m c 2 t (ix4 (0 : Fin 1) (0 : Fin 1) k d))
      = ∑ k : Fin 2048, attn (V m c main_arg0) (V m c main_arg1) (V m c main_arg3) (V m c main_arg4) (headB t) (headH t) (rowOf t r) k * V m c main_arg2 (ix4 (headB t) (headH t) k d)
  exact Finset.sum_congr rfl fun k _ => by rw [v_block]; rfl

/-! ## The blocks tile the arrays -/

/-- An index of the ctx array is in point t's block iff each coordinate is in the block's range on its axis. -/
theorem ctx_mem (t : Fin cfg0.N) (i : S2x16x2048x64.Idx) :
    i ∈ ((cfg0.win 5).blk t).view.set ↔ ∀ a : Fin 4, win0_5.index t a * S1x1x256x64.size a ≤ (i a).val
      ∧ (i a).val < win0_5.index t a * S1x1x256x64.size a + S1x1x256x64.size a := by
  show i ∈ ((View.whole main_v0_0).slice (win0_5.rect t)).set ↔ _
  rw [View.set_slice_whole, Rect.mem_set_unit]
  exact Iff.rfl

/-- Every index of the ctx array is in some point's block: the point of its batch, its head and the tile of its row. -/
theorem ctx_cover (i : S2x16x2048x64.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, c0, c1, c2⟩ := point_onto ⟨(i 0).val, h0⟩ ⟨(i 1).val, h1⟩ ⟨(i 2).val / 256, by omega⟩
  have c0' : (grid0.coords t 0).val = (i 0).val := c0
  have c1' : (grid0.coords t 1).val = (i 1).val := c1
  have c2' : (grid0.coords t 2).val = (i 2).val / 256 := c2
  obtain ⟨-, -, ⟨e0, e1, e2, e3⟩, -⟩ := tiled_index t
  refine ⟨t, flush0_5 t, ?_⟩
  rw [ctx_mem]
  intro a
  match a with
  | ⟨0, _⟩ =>
    show win0_5.index t (0 : Fin 4) * 1 ≤ (i 0).val ∧ (i 0).val < win0_5.index t (0 : Fin 4) * 1 + 1
    omega
  | ⟨1, _⟩ =>
    show win0_5.index t (1 : Fin 4) * 1 ≤ (i 1).val ∧ (i 1).val < win0_5.index t (1 : Fin 4) * 1 + 1
    omega
  | ⟨2, _⟩ =>
    show win0_5.index t (2 : Fin 4) * 256 ≤ (i 2).val ∧ (i 2).val < win0_5.index t (2 : Fin 4) * 256 + 256
    omega
  | ⟨3, _⟩ =>
    show win0_5.index t (3 : Fin 4) * 64 ≤ (i 3).val ∧ (i 3).val < win0_5.index t (3 : Fin 4) * 64 + 64
    omega

/-- An index of the attn array is in point t's block iff each coordinate is in the block's range on its axis. -/
theorem attn_mem (t : Fin cfg0.N) (i : S2x16x2048x2048.Idx) :
    i ∈ ((cfg0.win 6).blk t).view.set ↔ ∀ a : Fin 4, win0_6.index t a * S1x1x256x2048.size a ≤ (i a).val
      ∧ (i a).val < win0_6.index t a * S1x1x256x2048.size a + S1x1x256x2048.size a := by
  show i ∈ ((View.whole main_v0_1).slice (win0_6.rect t)).set ↔ _
  rw [View.set_slice_whole, Rect.mem_set_unit]
  exact Iff.rfl

/-- Every index of the attn array is in some point's block: the point of its batch, its head and the tile of its row. -/
theorem attn_cover (i : S2x16x2048x2048.Idx) :
    ∃ t : Fin cfg0.N, (cfg0.win 6).flush t = true ∧ i ∈ ((cfg0.win 6).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, c0, c1, c2⟩ := point_onto ⟨(i 0).val, h0⟩ ⟨(i 1).val, h1⟩ ⟨(i 2).val / 256, by omega⟩
  have c0' : (grid0.coords t 0).val = (i 0).val := c0
  have c1' : (grid0.coords t 1).val = (i 1).val := c1
  have c2' : (grid0.coords t 2).val = (i 2).val / 256 := c2
  obtain ⟨-, -, -, ⟨e0, e1, e2, e3⟩, -⟩ := tiled_index t
  refine ⟨t, flush0_6 t, ?_⟩
  rw [attn_mem]
  intro a
  match a with
  | ⟨0, _⟩ =>
    show win0_6.index t (0 : Fin 4) * 1 ≤ (i 0).val ∧ (i 0).val < win0_6.index t (0 : Fin 4) * 1 + 1
    omega
  | ⟨1, _⟩ =>
    show win0_6.index t (1 : Fin 4) * 1 ≤ (i 1).val ∧ (i 1).val < win0_6.index t (1 : Fin 4) * 1 + 1
    omega
  | ⟨2, _⟩ =>
    show win0_6.index t (2 : Fin 4) * 256 ≤ (i 2).val ∧ (i 2).val < win0_6.index t (2 : Fin 4) * 256 + 256
    omega
  | ⟨3, _⟩ =>
    show win0_6.index t (3 : Fin 4) * 2048 ≤ (i 3).val ∧ (i 3).val < win0_6.index t (3 : Fin 4) * 2048 + 2048
    omega

/-- An index of the scores array is in point t's block iff each coordinate is in the block's range on its axis. -/
theorem scores_mem (t : Fin cfg0.N) (i : S2x16x2048x2048.Idx) :
    i ∈ ((cfg0.win 7).blk t).view.set ↔ ∀ a : Fin 4, win0_7.index t a * S1x1x256x2048.size a ≤ (i a).val
      ∧ (i a).val < win0_7.index t a * S1x1x256x2048.size a + S1x1x256x2048.size a := by
  show i ∈ ((View.whole main_v0_2).slice (win0_7.rect t)).set ↔ _
  rw [View.set_slice_whole, Rect.mem_set_unit]
  exact Iff.rfl

/-- Every index of the scores array is in some point's block: the point of its batch, its head and the tile of its row. -/
theorem scores_cover (i : S2x16x2048x2048.Idx) :
    ∃ t : Fin cfg0.N, (cfg0.win 7).flush t = true ∧ i ∈ ((cfg0.win 7).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, c0, c1, c2⟩ := point_onto ⟨(i 0).val, h0⟩ ⟨(i 1).val, h1⟩ ⟨(i 2).val / 256, by omega⟩
  have c0' : (grid0.coords t 0).val = (i 0).val := c0
  have c1' : (grid0.coords t 1).val = (i 1).val := c1
  have c2' : (grid0.coords t 2).val = (i 2).val / 256 := c2
  obtain ⟨-, -, -, -, ⟨e0, e1, e2, e3⟩⟩ := tiled_index t
  refine ⟨t, flush0_7 t, ?_⟩
  rw [scores_mem]
  intro a
  match a with
  | ⟨0, _⟩ =>
    show win0_7.index t (0 : Fin 4) * 1 ≤ (i 0).val ∧ (i 0).val < win0_7.index t (0 : Fin 4) * 1 + 1
    omega
  | ⟨1, _⟩ =>
    show win0_7.index t (1 : Fin 4) * 1 ≤ (i 1).val ∧ (i 1).val < win0_7.index t (1 : Fin 4) * 1 + 1
    omega
  | ⟨2, _⟩ =>
    show win0_7.index t (2 : Fin 4) * 256 ≤ (i 2).val ∧ (i 2).val < win0_7.index t (2 : Fin 4) * 256 + 256
    omega
  | ⟨3, _⟩ =>
    show win0_7.index t (3 : Fin 4) * 2048 ≤ (i 3).val ∧ (i 3).val < win0_7.index t (3 : Fin 4) * 2048 + 2048
    omega

/-! ## The arrays after the run -/

theorem ctx_final (c : Dev nD) : (dats m 0 c).arrAt 5 cfg0.N = ctxArr (V m c main_arg0) (V m c main_arg1) (V m c main_arg2) (V m c main_arg3) (V m c main_arg4) :=
  (dats m 0 c).arrAt_eq_of_cover 5 _ (fun t _ => ctx_flushed m c t) ctx_cover

theorem attn_final (c : Dev nD) : (dats m 0 c).arrAt 6 cfg0.N = attnArr (V m c main_arg0) (V m c main_arg1) (V m c main_arg3) (V m c main_arg4) :=
  (dats m 0 c).arrAt_eq_of_cover 6 _ (fun t _ => attn_flushed m c t) attn_cover

theorem scores_final (c : Dev nD) : (dats m 0 c).arrAt 7 cfg0.N = scoresArr (V m c main_arg0) (V m c main_arg1) (V m c main_arg3) (V m c main_arg4) :=
  (dats m 0 c).arrAt_eq_of_cover 7 _ (fun t _ => scores_flushed m c t) scores_cover

/-- The kernel's run: the context, weight and score arrays end at the specification's, the arguments unchanged. -/
theorem run : θ_run defs (onTc (τ := τ) (main (F := Ideal))) ⟨m, fun _ => 0, ρ⟩ fun r => ∀ c : Dev nD,
      r.2.mem ((c : Thread nD τ).loc main_v0_0) = ctxArr (V m c main_arg0) (V m c main_arg1) (V m c main_arg2) (V m c main_arg3) (V m c main_arg4)
      ∧ r.2.mem ((c : Thread nD τ).loc main_v0_1) = attnArr (V m c main_arg0) (V m c main_arg1) (V m c main_arg3) (V m c main_arg4)
      ∧ r.2.mem ((c : Thread nD τ).loc main_v0_2) = scoresArr (V m c main_arg0) (V m c main_arg1) (V m c main_arg3) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (ctx_final m c), (h c).2.1.trans (attn_final m c),
      (h c).2.2.1.trans (scores_final m c), (h c).2.2.2⟩)
    (Cert.KernelIdeal.Value.run_blocks m ρ)

end Cert.AttentionArrays

end
-- ==== Proof.lean ====
/- Scaled dot-product attention with an additive mask and an additive bias: a tiled kernel against the plain formula.

   Both programs take queries Q[b,h,s,d], keys K[b,h,d,t] (already transposed), values V[b,h,t,d], a bias P[b,h,s,t]
   and a mask M[0,0,s,t] shared by every batch and head, with 2 batches, 16 heads, 2048 positions and head
   dimension 64, and return three arrays:

     scores[b,h,s,t]  = ((Σ_d Q[b,h,s,d] · K[b,h,d,t]) · c + M[0,0,s,t]) + P[b,h,s,t]
     weights[b,h,s,·] = softmax of scores[b,h,s,·]
     context[b,h,s,d] = Σ_t weights[b,h,s,t] · V[b,h,t,d]

   The kernel works tile by tile: one grid point per (batch, head, block of 256 queries), the whole key and value
   matrices of the head in each, and writes the three tiles back; it scales by the float 0.125. The plain formula
   computes whole arrays at once and divides by the square root of the float 64. Over the extended reals the only
   difference is that scale, and dividing by the square root of 64 is multiplying by 1/8 at every extended real
   (Proof/AttentionSpec.lean). Every other step — the row maximum from -∞, the exponentials, their sum, the quotient,
   the two products — is the same term on both sides, so no entry has to be finite.

   The specification is Proof/AttentionSpec.lean. That the plain formula computes it: Proof/AttentionRef.lean, stage
   by stage. That the kernel does: what a point leaves in its three tiles (Proof/AttentionPieces.lean), those tiles
   entry by entry (Proof/AttentionTile.lean), where a point's blocks sit in the arrays (Proof/AttentionBlocks.lean),
   and that the tiles of all points fill the three arrays with the specification (Proof/AttentionArrays.lean).
   The kernel and its idealization are the same text (no rewrite was applied), and each program's run leaves its
   arguments unchanged. -/
import proofs.«149125_j12171937316878_2_alg».proof.Defs
import proofs.«149125_j12171937316878_2_alg».proof.Proof.Gen.Kernel
import proofs.«149125_j12171937316878_2_alg».proof.Proof.Gen.Kernel.Frame
import proofs.«149125_j12171937316878_2_alg».proof.Proof.Gen.KernelIdeal
import proofs.«149125_j12171937316878_2_alg».proof.Proof.Gen.KernelIdeal.Frame
import proofs.«149125_j12171937316878_2_alg».proof.Proof.Gen.KernelIdeal.Value
import proofs.«149125_j12171937316878_2_alg».proof.Proof.Gen.ReferenceIdeal
import proofs.«149125_j12171937316878_2_alg».proof.Proof.Gen.ReferenceIdeal.Run
import proofs.«149125_j12171937316878_2_alg».proof.Proof.Gen.ReferenceIdeal.Read
import proofs.«149125_j12171937316878_2_alg».proof.Proof.Gen.Pre_finite_inputs
import proofs.«149125_j12171937316878_2_alg».proof.Proof.AttentionSpec
import proofs.«149125_j12171937316878_2_alg».proof.Proof.AttentionRef
import proofs.«149125_j12171937316878_2_alg».proof.Proof.AttentionArrays
import Idealize.ShloMosaic.Adequacy
import Idealize.ShloMosaic.Init

noncomputable section

namespace Cert.Proof

open Idealize.ShloMosaic Idealize.SL.Sem

/-- The kernel terminates, faults nowhere and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the plain formula: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The kernel's text is its own idealization: nothing was rewritten. -/
theorem preserves : Cert.preserves_Kernel_KernelIdeal := trivial

/-- From memories that agree on the five arguments the kernel's context, weight and score arrays and the plain
    formula's are the specification's arrays of those arguments. -/
theorem algebraic : Cert.algebraic_KernelIdeal_ReferenceIdeal := by
  intro m ρ m' ρ' _ hagree
  refine ⟨_, _, _, Cert.AttentionArrays.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v18_eq, Cert.AttentionRef.ctx_eq, (hagree c).1, (hagree c).2.1,
      (hagree c).2.2.1, (hagree c).2.2.2.1, (hagree c).2.2.2.2]
  · rw [(h c).2.1, Cert.ReferenceIdeal.Read.val_main_v17_eq, Cert.AttentionRef.attn_eq, (hagree c).1, (hagree c).2.1,
      (hagree c).2.2.2.1, (hagree c).2.2.2.2]
  · rw [(h c).2.2.1, Cert.ReferenceIdeal.Read.val_main_v6_eq, Cert.AttentionRef.scores_eq, (hagree c).1, (hagree c).2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
